-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel

variable [Facts]

def fn {F : FTy → Type} [FloatOps F] (main_arg0 : FVec F S64x2048x512 .f32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  main_v3
-- ==== Kernel.lean ====
abbrev S64x2048x512 : Shape := ⟨3, ![64, 2048, 512]⟩
abbrev S64x16x128 : Shape := ⟨3, ![64, 16, 128]⟩
abbrev S1x2048x512 : Shape := ⟨3, ![1, 2048, 512]⟩
abbrev S1x16x128 : Shape := ⟨3, ![1, 16, 128]⟩
abbrev S2048x1 : Shape := ⟨2, ![2048, 1]⟩
abbrev S2048x512 : Shape := ⟨2, ![2048, 512]⟩
abbrev S2047x512 : Shape := ⟨2, ![2047, 512]⟩
abbrev S2047 : Shape := ⟨1, ![2047]⟩
abbrev S2047x1 : Shape := ⟨2, ![2047, 1]⟩
abbrev S1x1 : Shape := ⟨2, ![1, 1]⟩
abbrev S2048 : Shape := ⟨1, ![2048]⟩
abbrev S1x2048 : Shape := ⟨2, ![1, 2048]⟩
abbrev S1 : Shape := ⟨1, ![1]⟩
abbrev S16x128 : Shape := ⟨2, ![16, 128]⟩
abbrev S64x2048 : Shape := ⟨2, ![64, 2048]⟩

abbrev nBuf : Space → Nat
  | .hbm => 3
  | .vmem => 5
  | .smem => 0
  | _ => 0

abbrev bufTy : (tb : Table) → Fin (tcTables nBuf tb) → BufTy
  | .hbm, ⟨0, _⟩ => ⟨S64x2048x512, .f32⟩
  | .hbm, ⟨1, _⟩ => ⟨S64x16x128, .f32⟩
  | .hbm, ⟨2, _⟩ => ⟨S64x2048, .f32⟩
  | .local _ .vmem, ⟨0, _⟩ => ⟨S1x2048x512, .f32⟩
  | .local _ .vmem, ⟨1, _⟩ => ⟨S1x2048x512, .f32⟩
  | .local _ .vmem, ⟨2, _⟩ => ⟨S1x16x128, .f32⟩
  | .local _ .vmem, ⟨3, _⟩ => ⟨S1x16x128, .f32⟩
  | .local _ .vmem, ⟨4, _⟩ => ⟨S2048x1, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  slices_S2048x512_o1_0_S2047x512 : S2048x512.Slices ![1, 0] S2047x512
  slices_S2048x512_o0_0_S2047x512 : S2048x512.Slices ![0, 0] S2047x512
  reduces_S2047x512_S2047 : S2047x512.Reduces [1] S2047
  shapeCasts_S2047_S2047x1 : S2047.ShapeCasts S2047x1
  inb_S2048x1_S1x1_0_0 : ∀ a, (![0, 0] : Fin 2 → Nat) a + S1x1.size a ≤ S2048x1.size a
  h_S1x1 : 0 < S1x1.numel
  shapeCasts_S1x1_S1x1 : S1x1.ShapeCasts S1x1
  inb_S2048x1_S2047x1_1_0 : ∀ a, (![1, 0] : Fin 2 → Nat) a + S2047x1.size a ≤ S2048x1.size a
  h_S2047x1 : 0 < S2047x1.numel
  shapeCasts_S2047x1_S2047x1 : S2047x1.ShapeCasts S2047x1
  inb_S2048x1_S2048x1_0_0 : ∀ a, (![0, 0] : Fin 2 → Nat) a + S2048x1.size a ≤ S2048x1.size a
  h_S2048x1 : 0 < S2048x1.numel
  shapeCasts_S2048x1_S2048 : S2048x1.ShapeCasts S2048
  shapeCasts_S2048_S1x2048 : S2048.ShapeCasts S1x2048
  reduces_S1x2048_S1 : S1x2048.Reduces [1] S1
  shapeCasts_S1_S1x1 : S1.ShapeCasts S1x1
  inpos_S1x1_p0_0 : ∀ a, (![0, 0] : Fin 2 → Nat) a < S1x1.size a
  broadcasts_S1_S2048 : S1.Broadcasts S2048
  shapeCasts_S2048_S16x128 : S2048.ShapeCasts S16x128
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  shapeCasts_S64x16x128_S64x2048 : S64x16x128.ShapeCasts S64x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S64x2048x512.size a
  hwx0_0 : ∀ i : grid0.Coords, EltTy.bits .f32 = 32 ∨ (Rect.block (s := S64x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128.size a ≤ S64x16x128.size a
  hwx0_1 : ∀ i : grid0.Coords, EltTy.bits .f32 = 32 ∨ (Rect.block (s := S64x16x128) S1x16x128.size (cc0_transform_1 i) (hinb0_1 i)).WholeWords (EltTy.packing .f32)

variable [Facts₀]

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x2048x512 : Shape := ⟨3, ![64, 2048, 512]⟩
abbrev S64x2047x512 : Shape := ⟨3, ![64, 2047, 512]⟩
abbrev S_ : Shape := ⟨0, ![]⟩
abbrev S64x2047 : Shape := ⟨2, ![64, 2047]⟩
abbrev S64x1 : Shape := ⟨2, ![64, 1]⟩
abbrev S64x2048 : Shape := ⟨2, ![64, 2048]⟩
abbrev S64 : Shape := ⟨1, ![64]⟩

abbrev nBuf : Space → Nat
  | .hbm => 15
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S64x2047x512, .f32⟩
  | .hbm, ⟨2, _⟩ => ⟨S64x2047x512, .f32⟩
  | .hbm, ⟨3, _⟩ => ⟨S64x2047x512, .f32⟩
  | .hbm, ⟨4, _⟩ => ⟨S64x2047x512, .f32⟩
  | .hbm, ⟨5, _⟩ => ⟨S_, .f32⟩
  | .hbm, ⟨6, _⟩ => ⟨S64x2047, .f32⟩
  | .hbm, ⟨7, _⟩ => ⟨S_, .f32⟩
  | .hbm, ⟨8, _⟩ => ⟨S64x1, .f32⟩
  | .hbm, ⟨9, _⟩ => ⟨S64x2048, .f32⟩
  | .hbm, ⟨10, _⟩ => ⟨S_, .f32⟩
  | .hbm, ⟨11, _⟩ => ⟨S64, .f32⟩
  | .hbm, ⟨12, _⟩ => ⟨S64x1, .f32⟩
  | .hbm, ⟨13, _⟩ => ⟨S64x2048, .f32⟩
  | .hbm, ⟨14, _⟩ => ⟨S64x2048, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  slices_S64x2048x512_S64x2047x512_0_1_0 : S64x2048x512.Slices ![0, 1, 0] S64x2047x512
  slices_S64x2048x512_S64x2047x512_0_0_0 : S64x2048x512.Slices ![0, 0, 0] S64x2047x512
  reducesTo_S64x2047x512_S64x2047_d2 : S64x2047x512.ReducesTo [2] S64x2047
  h_S_ : 0 < S_.numel
  bcast_S_S64x1 : S_.BroadcastsInDim S64x1 (![] : Fin 0 → Fin S64x1.rank)
  concatenates_S64x1_S64x2047_S64x2048_d1 : Shape.Concatenates [S64x1, S64x2047] S64x2048 1
  reducesTo_S64x2048_S64_d1 : S64x2048.ReducesTo [1] S64
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)

variable [Facts₀]

class Facts : Prop extends Facts₀ where

variable [Facts]
-- ==== Proof.Spec.lean ====
/-
  The function both programs compute, stated once over the argument array.

  The argument is 64 sequences of 2048 rows of 512 numbers. For a sequence `b` the distance at row `s` is `0` at
  the first row and, from the second row on, the squared Euclidean distance between row `s` and the row before it:
  the sum over the 512 columns of the squared difference. The sequence's top is the maximum of its 2048 distances,
  taken from `-∞`. The result at `(b, s)` is the distance at `s` divided by the sequence's top.

  Everything is over the extended reals, with the operations the ideal instance gives the floats: the difference and
  the product are the extended reals' own, the quotient is `Ideal.div`. No law of arithmetic is used anywhere below:
  both programs spell exactly this function, in different layouts.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The argument's shape: 64 sequences, 2048 rows, 512 columns. -/
abbrev SX : Shape := ⟨3, ![64, 2048, 512]⟩
/-- The result's shape: one number per sequence and row. -/
abbrev SO : Shape := ⟨2, ![64, 2048]⟩

/-- Row `r + 1`, for `r` one of the first 2047 rows. -/
abbrev up (r : Fin 2047) : Fin 2048 := ⟨r.val + 1, by have := r.isLt; omega⟩
/-- Row `r` itself as one of the 2048 rows. -/
abbrev lo (r : Fin 2047) : Fin 2048 := ⟨r.val, by have := r.isLt; omega⟩

/-- The squared distance between rows `r + 1` and `r` of sequence `b`. -/
def step (x : SX.Idx → EReal) (b : Fin 64) (r : Fin 2047) : EReal :=
  ∑ k : Fin 512, (x (ix3 b (up r) k) - x (ix3 b (lo r) k)) * (x (ix3 b (up r) k) - x (ix3 b (lo r) k))

/-- The distance at row `s` of sequence `b`: nothing at the first row, the step from the row before otherwise. -/
def dist (x : SX.Idx → EReal) (b : Fin 64) (s : Fin 2048) : EReal :=
  if h : s.val = 0 then 0 else step x b ⟨s.val - 1, by have := s.isLt; omega⟩

theorem dist_zero (x : SX.Idx → EReal) (b : Fin 64) (s : Fin 2048) (h : s.val = 0) : dist x b s = 0 := by
  unfold dist; rw [dif_pos h]

theorem dist_succ (x : SX.Idx → EReal) (b : Fin 64) (s : Fin 2048) (r : Fin 2047) (h : s.val = r.val + 1) :
    dist x b s = step x b r := by
  unfold dist
  rw [dif_neg (by omega)]
  exact congrArg (step x b) (Fin.ext (by show s.val - 1 = r.val; omega))

/-- The largest distance of sequence `b`, the maximum taken from `-∞` (the word `0xFF800000`). -/
def top (x : SX.Idx → EReal) (b : Fin 64) : EReal :=
  (Finset.univ : Finset (Fin 2048)).fold max (Ideal.ofBits .f32 0xFF800000#32) (dist x b)

/-- The result: each distance over its sequence's largest. -/
def G (x : SX.Idx → EReal) : SO.Idx → EReal :=
  fun i => Ideal.div (dist x (i 0) (i 1)) (top x (i 0))

theorem G_apply (x : SX.Idx → EReal) (b : Fin 64) (s : Fin 2048) :
    G x (ix2 b s) = Ideal.div (dist x b s) (top x b) := rfl

end Cert.Spec

end
-- ==== Proof.KernelBody.lean ====
/-
  The kernel body's three stored values, read entry by entry over the extended reals.

  At one grid point the body holds one sequence: a block of 2048 rows by 512 columns. It writes a column of 2048
  numbers into a scratch buffer in two stores — a zero at row 0, and at row `r + 1` the sum over the columns of the
  squared difference of rows `r + 1` and `r` — reads the column back, and stores each entry divided by the column's
  maximum, laid out as 16 rows of 128: entry `(p, q)` of the stored block is entry `128 p + q` of the column.
-/
import proofs.«101810_j44693429682542_2_alg».proof.Proof.Gen.KernelIdeal.Skeleton
import proofs.«101810_j44693429682542_2_alg».proof.Proof.Spec
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx
open Cert.KernelIdeal Cert.KernelIdeal.Gen Cert.Spec

/-- Within one block: the squared distance between rows `r + 1` and `r`. -/
def rowStep (x0 : FVec Ideal S1x2048x512 .f32) (r : Fin 2047) : EReal :=
  ∑ k : Fin 512, (x0 (ix3 (0 : Fin 1) (up r) k) - x0 (ix3 (0 : Fin 1) (lo r) k))
    * (x0 (ix3 (0 : Fin 1) (up r) k) - x0 (ix3 (0 : Fin 1) (lo r) k))

/-- The block with its unit axis dropped reads the block's row `s`, column `k`. -/
theorem blockRow_apply (x0 : FVec Ideal S1x2048x512 .f32) (s : Fin 2048) (k : Fin 512) :
    shapeCast S2048x512 x0 shapeCasts_S1x2048x512_S2048x512 (ix2 s k) = x0 (ix3 (0 : Fin 1) s k) :=
  shapeCast_apply x0 shapeCasts_S1x2048x512_S2048x512 (ix2 s k) (ix3 (0 : Fin 1) s k) (by
    rw [Shape.rowMajor_val_three, Shape.rowMajor_val_two]
    show ((0 : ℕ) * 2048 + s.val) * 512 + k.val = s.val * 512 + k.val
    omega)

/-- The rows from the second on: row `r` of the slice is row `r + 1`. -/
theorem upper_apply (v1 : FVec Ideal S2048x512 .f32) (r : Fin 2047) (k : Fin 512) :
    extractStridedSlice S2047x512 ![1, 0] v1 slices_S2048x512_o1_0_S2047x512 (ix2 r k) = v1 (ix2 (up r) k) :=
  extractStridedSlice_apply ![1, 0] v1 slices_S2048x512_o1_0_S2047x512 (ix2 r k) (ix2 (up r) k) (fun a => match a with
    | ⟨0, _⟩ => by show r.val + 1 = 1 + r.val; omega
    | ⟨1, _⟩ => by show k.val = 0 + k.val; omega)

/-- The rows but the last: row `r` of the slice is row `r`. -/
theorem lower_apply (v1 : FVec Ideal S2048x512 .f32) (r : Fin 2047) (k : Fin 512) :
    extractStridedSlice S2047x512 ![0, 0] v1 slices_S2048x512_o0_0_S2047x512 (ix2 r k) = v1 (ix2 (lo r) k) :=
  extractStridedSlice_apply ![0, 0] v1 slices_S2048x512_o0_0_S2047x512 (ix2 r k) (ix2 (lo r) k) (fun a => match a with
    | ⟨0, _⟩ => by show r.val = 0 + r.val; omega
    | ⟨1, _⟩ => by show k.val = 0 + k.val; omega)

/-- The second store's value at row `r`: the squared distance between rows `r + 1` and `r` of the block. -/
theorem pay2_apply (x0 : FVec Ideal S1x2048x512 .f32) (r : Fin 2047) :
    k0_pay2 (F := Ideal) x0 (ix2 r (0 : Fin 1)) = rowStep x0 r := by
  unfold k0_pay2
  dsimp only
  rw [shapeCast_self]
  refine (shapeCast_apply _ shapeCasts_S2047_S2047x1 (ix2 r (0 : Fin 1)) (ix1 r) ?_).trans ?_
  · rw [Shape.rowMajor_val_one, Shape.rowMajor_val_two]
    show r.val = r.val * 1 + 0
    omega
  refine (Ideal.multiReduction_add_single _ _ reduces_S2047x512_S2047 _ _ (ix1 r)).trans ?_
  unfold rowStep
  refine Finset.sum_congr rfl (fun (k : Fin 512) _ => ?_)
  have hl : reduces_S2047x512_S2047.lift (ix1 r) k = ix2 r k :=
    funext fun a => Fin.ext (by match a with | ⟨0, _⟩ => rfl | ⟨1, _⟩ => rfl)
  rw [hl, mulf_apply, subf_apply, upper_apply, lower_apply, blockRow_apply, blockRow_apply]

/-- The first store's value: zero. -/
theorem pay1_apply : k0_pay1 (F := Ideal) (ix2 (0 : Fin 1) (0 : Fin 1)) = 0 := by
  unfold k0_pay1
  rw [shapeCast_self]
  show Ideal.ofBits .f32 0x00000000#32 = 0
  exact Ideal.ofBits_zero_f32

/-- The column flattened to a vector reads the column's row `s`. -/
theorem flat_apply (v15 : FVec Ideal S2048x1 .f32) (s : Fin 2048) :
    shapeCast S2048 v15 shapeCasts_S2048x1_S2048 (ix1 s) = v15 (ix2 s (0 : Fin 1)) :=
  shapeCast_apply v15 shapeCasts_S2048x1_S2048 (ix1 s) (ix2 s (0 : Fin 1)) (by
    rw [Shape.rowMajor_val_two, Shape.rowMajor_val_one]
    show s.val * 1 + 0 = s.val
    omega)

/-- The maximum of a vector of 2048 entries laid out as one row, taken from `-∞`: the fold of `max` over the
    entries. -/
theorem rowTop_apply (v16 : FVec Ideal S2048 .f32) :
    multiReduction .maximumf [1] S1 (shapeCast S1x2048 v16 shapeCasts_S2048_S1x2048) 0xFF800000#32 reduces_S1x2048_S1
        (.inl rfl) rfl (ix1 (0 : Fin 1))
      = (Finset.univ : Finset (Fin 2048)).fold max (Ideal.ofBits .f32 0xFF800000#32) (fun s' => v16 (ix1 s')) := by
  refine (Ideal.multiReduction_maximumf_single _ _ reduces_S1x2048_S1 _ _ (ix1 (0 : Fin 1))).trans ?_
  refine congrArg (fun f => (Finset.univ : Finset (Fin 2048)).fold max (Ideal.ofBits .f32 0xFF800000#32) f)
    (funext fun s' => ?_)
  show shapeCast S1x2048 v16 shapeCasts_S2048_S1x2048 (reduces_S1x2048_S1.lift (ix1 (0 : Fin 1)) s') = v16 (ix1 s')
  refine shapeCast_apply v16 shapeCasts_S2048_S1x2048 _ (ix1 s') ?_
  rw [Shape.rowMajor_val_one, Shape.rowMajor_val_two]
  show s'.val = 0 * 2048 + s'.val
  omega

/-- The third store's value at entry `(p, q)`: the column's entry `128 p + q` over the column's maximum. -/
theorem pay3_apply (v15 : FVec Ideal S2048x1 .f32) (p : Fin 16) (q : Fin 128) (s : Fin 2048)
    (hs : s.val = p.val * 128 + q.val) :
    k0_pay3 (F := Ideal) v15 (ix3 (0 : Fin 1) p q)
      = Ideal.div (v15 (ix2 s (0 : Fin 1)))
          ((Finset.univ : Finset (Fin 2048)).fold max (Ideal.ofBits .f32 0xFF800000#32)
            (fun s' => v15 (ix2 s' (0 : Fin 1)))) := by
  unfold k0_pay3
  dsimp only
  refine (shapeCast_apply _ shapeCasts_S16x128_S1x16x128 (ix3 (0 : Fin 1) p q) (ix2 p q) ?_).trans ?_
  · rw [Shape.rowMajor_val_two, Shape.rowMajor_val_three]
    show p.val * 128 + q.val = ((0 : ℕ) * 16 + p.val) * 128 + q.val
    omega
  refine (shapeCast_apply _ shapeCasts_S2048_S16x128 (ix2 p q) (ix1 s) ?_).trans ?_
  · rw [Shape.rowMajor_val_one, Shape.rowMajor_val_two]
    show s.val = p.val * 128 + q.val
    exact hs
  rw [divf_apply, flat_apply]
  refine congrArg (Ideal.div (v15 (ix2 s (0 : Fin 1)))) ?_
  refine (broadcastTo_apply _ broadcasts_S1_S2048 (ix1 s) (ix1 (0 : Fin 1)) (fun a => match a with
    | ⟨0, _⟩ => by show (0 : ℕ) = if (1 : ℕ) = 1 then 0 else s.val; rw [if_pos rfl])).trans ?_
  rw [broadcast_apply]
  show shapeCast S1x1 _ shapeCasts_S1_S1x1 (ix2 (0 : Fin 1) (0 : Fin 1)) = _
  refine (shapeCast_apply _ shapeCasts_S1_S1x1 (ix2 (0 : Fin 1) (0 : Fin 1)) (ix1 (0 : Fin 1)) ?_).trans ?_
  · rw [Shape.rowMajor_val_one, Shape.rowMajor_val_two]
    rfl
  refine (rowTop_apply _).trans ?_
  refine congrArg (fun f => (Finset.univ : Finset (Fin 2048)).fold max (Ideal.ofBits .f32 0xFF800000#32) f)
    (funext fun s' => ?_)
  exact flat_apply v15 s'

end Cert.KernelBody

end
-- ==== Proof.KernelPoint.lean ====
/-
  What one grid point leaves in the output's staging buffer, read entry by entry over the extended reals.

  The body's scratch column is written by two stores that together cover it: a single zero at row 0 and the 2047
  squared distances at rows 1 … 2047. Read back whole, the column at row `s` is therefore `0` for `s = 0` and the
  squared distance between rows `s` and `s - 1` of the block otherwise — whatever the scratch held before. The stored
  block at `(p, q)` is the column's entry `128 p + q` over the column's maximum.
-/
import proofs.«101810_j44693429682542_2_alg».proof.Proof.Gen.KernelIdeal.Frame
import proofs.«101810_j44693429682542_2_alg».proof.Proof.KernelBody
import Idealize.ShloMosaic.Lib.Pipeline.Value
import Idealize.ShloMosaic.Lib.WritesUnit
import Idealize.ShloMosaic.Lib.Tactic

noncomputable section

namespace Cert.KernelPoint

open Idealize.ShloMosaic Idealize.ShloMosaic.TcCoe Idealize.ShloMosaic.ValueIdx Idealize.SL.Sem
open Cert.KernelIdeal Cert.KernelIdeal.Gen Cert.Spec Cert.KernelBody

variable {F : FTy → Type} [FloatOps F]

theorem hz3 : (![0, 0, 0] : Fin 3 → Nat) = fun _ => 0 := funext fun a => by fin_cases a <;> rfl

/-- The scratch column read back whole after the two stores: `w0` at row 0, `w1` at rows 1 … 2047. -/
def column (v : View sig .tc .vmem S2048x1 .f32) (w1 : S2047x1.Idx → Elt F .f32) (w0 : S1x1.Idx → Elt F .f32) :
    Vec F S2048x1 .f32 :=
  v.readCov [(⟨Rect.unit ![1, 0] S2047x1.size inb_S2048x1_S2047x1_1_0, w1⟩ : View.Piece (Elt F) S2048x1 .f32),
      ⟨Rect.unit ![0, 0] S1x1.size inb_S2048x1_S1x1_0_0, w0⟩]
    (Rect.unit ![0, 0] S2048x1.size inb_S2048x1_S2048x1_0_0).toLoadRect

/-- What the body leaves in the output's buffer: the third store's value of the column the first two stores left. -/
theorem out_eq (c : Dev nD) (i : grid0.Coords) (a1 : Memref sig .tc .vmem S1x2048x512 .f32) (h1 : a1.IsWhole)
    (a2 : Memref sig .tc .vmem S1x16x128 .f32) (h2 : a2.IsWhole) (a3 : Memref sig .tc .vmem S2048x1 .f32) (h3 : a3.IsWhole)
    (x : Vec F S1x2048x512 .f32) :
    out0_A_1 c i a1 h1 a2 h2 a3 h3 x = k0_pay3 (column a3.view (k0_pay2 x) k0_pay1) := by
  unfold out0_A_1
  rw [View.read_writes_eq_canon _ _ _ (cover0_A_1 c i a1 h1 a2 h2 a3 h3 x)]
  unfold kernelRun0_A
  dsimp only
  sl_unfold_words
  rw [View.canon_unit_zero hz3]
  simp only [View.readAt_eq_ld, h1.read_unread, View.ld_unit_zero (S := S1x2048x512) hz3]
  rfl

/-- Row 0 of the column is what the first store wrote. -/
theorem column_first (v : View sig .tc .vmem S2048x1 .f32) (w1 : S2047x1.Idx → Elt F .f32) (w0 : S1x1.Idx → Elt F .f32)
    (s : Fin 2048) (hs : s.val = 0) :
    column v w1 w0 (ix2 s (0 : Fin 1)) = w0 (ix2 (0 : Fin 1) (0 : Fin 1)) := by
  unfold column
  show v.read (Elt F) (v.writes (Elt F) v.junk (_ :: _)) _ = _
  refine (View.read_writes_cons_unit_of_not_mem v v.junk inb_S2048x1_S2047x1_1_0 w1 _ _ rfl (0 : Fin 2)
    (Or.inl (by show 0 + 1 * s.val < 1; omega))).trans ?_
  exact View.read_writes_cons_unit_of_mem v v.junk inb_S2048x1_S1x1_0_0 w0 [] _ (ix2 (0 : Fin 1) (0 : Fin 1)) rfl
    (fun a => match a with
      | ⟨0, _⟩ => by show 0 + 1 * s.val = 0 + 0; omega
      | ⟨1, _⟩ => rfl)

/-- Row `r + 1` of the column is row `r` of what the second store wrote. -/
theorem column_later (v : View sig .tc .vmem S2048x1 .f32) (w1 : S2047x1.Idx → Elt F .f32) (w0 : S1x1.Idx → Elt F .f32)
    (s : Fin 2048) (r : Fin 2047) (hs : s.val = r.val + 1) :
    column v w1 w0 (ix2 s (0 : Fin 1)) = w1 (ix2 r (0 : Fin 1)) := by
  unfold column
  show v.read (Elt F) (v.writes (Elt F) v.junk (_ :: _)) _ = _
  exact View.read_writes_cons_unit_of_mem v v.junk inb_S2048x1_S2047x1_1_0 w1 _ _ (ix2 r (0 : Fin 1)) rfl
    (fun a => match a with
      | ⟨0, _⟩ => by show 0 + 1 * s.val = 1 + r.val; omega
      | ⟨1, _⟩ => rfl)

/-- Within one block: the distance at row `s` — nothing at the first row, the step from the row before otherwise. -/
def blockDist (x : FVec Ideal S1x2048x512 .f32) (s : Fin 2048) : EReal :=
  if h : s.val = 0 then 0 else rowStep x ⟨s.val - 1, by have := s.isLt; omega⟩

/-- The column the body reads back is the block's distances. -/
theorem column_apply (v : View sig .tc .vmem S2048x1 .f32) (x : FVec Ideal S1x2048x512 .f32) (s : Fin 2048) :
    column (F := Ideal) v (k0_pay2 (F := Ideal) x) (k0_pay1 (F := Ideal)) (ix2 s (0 : Fin 1)) = blockDist x s := by
  unfold blockDist
  by_cases h : s.val = 0
  · rw [dif_pos h]
    exact (column_first v _ _ s h).trans pay1_apply
  · rw [dif_neg h]
    exact (column_later v _ _ s ⟨s.val - 1, by have := s.isLt; omega⟩ (by show s.val = s.val - 1 + 1; omega)).trans
      (pay2_apply x _)

/-- The largest distance within one block, the maximum taken from `-∞`. -/
def blockTop (x : FVec Ideal S1x2048x512 .f32) : EReal :=
  (Finset.univ : Finset (Fin 2048)).fold max (Ideal.ofBits .f32 0xFF800000#32) (blockDist x)

/-- What one point leaves in the output's buffer, at entry `(p, q)`: the block's distance at row `128 p + q` over the
    block's largest distance. -/
theorem out_apply (c : Dev nD) (i : grid0.Coords) (a1 : Memref sig .tc .vmem S1x2048x512 .f32) (h1 : a1.IsWhole)
    (a2 : Memref sig .tc .vmem S1x16x128 .f32) (h2 : a2.IsWhole) (a3 : Memref sig .tc .vmem S2048x1 .f32) (h3 : a3.IsWhole)
    (x : Vec Ideal S1x2048x512 .f32) (p : Fin 16) (q : Fin 128) (s : Fin 2048) (hs : s.val = p.val * 128 + q.val) :
    out0_A_1 (F := Ideal) c i a1 h1 a2 h2 a3 h3 x (ix3 (0 : Fin 1) p q) = Ideal.div (blockDist x s) (blockTop x) := by
  rw [out_eq]
  refine (pay3_apply _ p q s hs).trans ?_
  rw [column_apply]
  refine congrArg (Ideal.div (blockDist x s)) ?_
  unfold blockTop
  exact congrArg (fun f => (Finset.univ : Finset (Fin 2048)).fold max (Ideal.ofBits .f32 0xFF800000#32) f)
    (funext fun s' => column_apply a3.view x s')

end Cert.KernelPoint

end
-- ==== Proof.KernelArray.lean ====
/-
  From the grid points to the kernel's result, over the extended reals.

  Grid point `t` stages sequence `t` of the argument and writes back block `t` of a 64 × 16 × 128 array; the 64 blocks
  tile that array. What point `t` writes at `(p, q)` is the distance of sequence `t` at row `128 p + q` over that
  sequence's largest distance, so the array after the region holds the specification function with each sequence's
  2048 rows laid out as 16 rows of 128. The program's last line reshapes that array to 64 × 2048, which puts entry
  `(b, p, q)` at `(b, 128 p + q)`: the result is the specification function itself.
-/
import proofs.«101810_j44693429682542_2_alg».proof.Proof.Gen.KernelIdeal.Frame
import proofs.«101810_j44693429682542_2_alg».proof.Proof.KernelPoint
import Idealize.ShloMosaic.Lib.Pipeline.Value
import Idealize.ShloMosaic.Lib.StableHlo.Run
import Idealize.ShloMosaic.Lib.Tactic

noncomputable section

namespace Cert.KernelArray

open Idealize.ShloMosaic Idealize.ShloMosaic.TcCoe Idealize.ShloMosaic.ValueIdx Idealize.SL.Sem
open Idealize.ShloMosaic.Pipeline (Dat)
open Cert.KernelIdeal Cert.KernelIdeal.Gen Cert.Spec Cert.KernelBody Cert.KernelPoint

/-! ## A block that is one sequence of the argument -/

/-- A block that holds sequence `b` of the array `X` has that sequence's distances. -/
theorem blockDist_eq (X : SX.Idx → EReal) (x : FVec Ideal S1x2048x512 .f32) (b : Fin 64)
    (hx : ∀ (s : Fin 2048) (k : Fin 512), x (ix3 (0 : Fin 1) s k) = X (ix3 b s k)) (s : Fin 2048) :
    blockDist x s = dist X b s := by
  unfold blockDist Spec.dist
  by_cases h : s.val = 0
  · rw [dif_pos h, dif_pos h]
  · rw [dif_neg h, dif_neg h]
    unfold rowStep step
    refine Finset.sum_congr rfl fun k _ => ?_
    rw [hx, hx]

/-- And that sequence's largest distance. -/
theorem blockTop_eq (X : SX.Idx → EReal) (x : FVec Ideal S1x2048x512 .f32) (b : Fin 64)
    (hx : ∀ (s : Fin 2048) (k : Fin 512), x (ix3 (0 : Fin 1) s k) = X (ix3 b s k)) :
    blockTop x = top X b := by
  unfold blockTop top
  exact congrArg (fun f => (Finset.univ : Finset (Fin 2048)).fold max (Ideal.ofBits .f32 0xFF800000#32) f)
    (funext (blockDist_eq X x b hx))

/-! ## The array the region leaves -/

/-- Row `128 p + q` of a sequence: where entry `(p, q)` of a 16 × 128 block sits in the sequence's 2048 rows. -/
abbrev flat (p : Fin 16) (q : Fin 128) : Fin 2048 :=
  ⟨p.val * 128 + q.val, by have := p.isLt; have := q.isLt; omega⟩

/-- The specification function with each sequence's rows laid out as 16 rows of 128. -/
def tiled (X : SX.Idx → EReal) : S64x16x128.Idx → EReal :=
  fun i => G X (ix2 (i 0) (flat (i 1) (i 2)))

/-- What one point leaves in the output's buffer, at any entry of the block. -/
theorem out_block (c : Dev nD) (i : grid0.Coords) (a1 : Memref sig .tc .vmem S1x2048x512 .f32) (h1 : a1.IsWhole)
    (a2 : Memref sig .tc .vmem S1x16x128 .f32) (h2 : a2.IsWhole) (a3 : Memref sig .tc .vmem S2048x1 .f32) (h3 : a3.IsWhole)
    (x : Vec Ideal S1x2048x512 .f32) (j : S1x16x128.Idx) :
    out0_A_1 (F := Ideal) c i a1 h1 a2 h2 a3 h3 x j = Ideal.div (blockDist x (flat (j 1) (j 2))) (blockTop x) := by
  have h0 : j 0 = (0 : Fin 1) := Fin.ext (by
    show (j 0).val = 0
    have : (j 0).val < 1 := (j 0).isLt
    omega)
  have hj : j = ix3 (0 : Fin 1) (j 1) (j 2) := funext fun a => by
    match a with
    | ⟨0, _⟩ => exact h0
    | ⟨1, _⟩ => rfl
    | ⟨2, _⟩ => rfl
  refine (congrArg (out0_A_1 (F := Ideal) c i a1 h1 a2 h2 a3 h3 x) hj).trans ?_
  exact out_apply c i a1 h1 a2 h2 a3 h3 x (j 1) (j 2) (flat (j 1) (j 2)) rfl

variable (m : (ℓ : Loc nD τ sig) → Buf (Elt Ideal) ℓ) (ρ : Dev nD → PrngReg)

/-- The printed index maps, decided over the grid: at point `t` both windows are at block `t` of the leading axis and
    block 0 of the others. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The input block at point `t` is sequence `t` of the argument. -/
theorem iblk_apply (c : Dev nD) (t : Fin cfg0.N) (b : Fin 64) (hb : b.val = t.val) (s : Fin 2048) (k : Fin 512) :
    iblk m c 0 t (ix3 (0 : Fin 1) s k) = V m c main_arg0 (ix3 b s k) := by
  obtain ⟨e0, e1, e2, -, -, -⟩ := idx_facts t
  show V m c main_arg0 (((cfg0.win 0).blk t).view.emb (ix3 (0 : Fin 1) s k)) = _
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 2048 + 1 * s.val = s.val; omega
  | ⟨2, _⟩ => show win0_0.index t (2 : Fin 3) * 512 + 1 * k.val = k.val; omega

/-- What point `t` writes back is block `t` of the tiled specification of the argument. -/
theorem flushed_eq (c : Dev nD) (t : Fin cfg0.N) :
    (dats m 0 c).flushed 1 t = ((cfg0.win 1).blk t).view.read (Elt Ideal) (tiled (V m c main_arg0)) := by
  show (cfg0.win 1).cut (grid0.coords t) ((dats m 0 c).after 1 t) = _
  rw [after0_1]
  unfold outsAt0
  have hN : cfg0.N = 64 := N_0
  have ht : t.val < 64 := by have := t.isLt; omega
  obtain ⟨-, -, -, e0, e1, e2⟩ := idx_facts t
  funext j
  refine (out_block c (grid0.coords t) (ms0_0 t) (hs0_0 t) (ms0_1 t) (hs0_1 t) scM0_0 (Memref.isWhole_whole _)
    (iblk m c 0 t) j).trans ?_
  show _ = G (V m c main_arg0) (ix2 ((((cfg0.win 1).blk t).view.emb j) 0)
    (flat ((((cfg0.win 1).blk t).view.emb j) 1) ((((cfg0.win 1).blk t).view.emb j) 2)))
  have hb : (((cfg0.win 1).blk t).view.emb j) 0 = (⟨t.val, ht⟩ : Fin 64) := Fin.ext (by
    show win0_1.index t (0 : Fin 3) * 1 + 1 * (j 0).val = t.val
    have : (j 0).val < 1 := (j 0).isLt
    omega)
  have hs : flat ((((cfg0.win 1).blk t).view.emb j) 1) ((((cfg0.win 1).blk t).view.emb j) 2) = flat (j 1) (j 2) :=
    Fin.ext (by
      show (win0_1.index t (1 : Fin 3) * 16 + 1 * (j 1).val) * 128 + (win0_1.index t (2 : Fin 3) * 128 + 1 * (j 2).val)
        = (j 1).val * 128 + (j 2).val
      rw [e1, e2]
      omega)
  rw [hb, hs, G_apply]
  exact congrArg₂ Ideal.div
    (blockDist_eq (V m c main_arg0) (iblk m c 0 t) ⟨t.val, ht⟩ (iblk_apply m c t ⟨t.val, ht⟩ rfl) (flat (j 1) (j 2)))
    (blockTop_eq (V m c main_arg0) (iblk m c 0 t) ⟨t.val, ht⟩ (iblk_apply m c t ⟨t.val, ht⟩ rfl))

/-- An index of the array is in point `t`'s block iff each coordinate is in the block's range on its axis. -/
theorem mem_blk (t : Fin cfg0.N) (i : S64x16x128.Idx) :
    i ∈ ((cfg0.win 1).blk t).view.set ↔ ∀ a : Fin 3, win0_1.index t a * S1x16x128.size a ≤ (i a).val
      ∧ (i a).val < win0_1.index t a * S1x16x128.size a + S1x16x128.size a := by
  show i ∈ ((View.whole main_v0).slice (win0_1.rect t)).set ↔ _
  rw [View.set_slice_whole, Rect.mem_set_unit]
  exact Iff.rfl

/-- The 64 blocks tile the array, so after the region it holds the tiled specification of the argument. -/
theorem final (c : Dev nD) : (dats m 0 c).arrAt 1 cfg0.N = tiled (V m c main_arg0) :=
  (dats m 0 c).arrAt_eq_of_cover 1 (tiled (V m c main_arg0)) (fun t _ => flushed_eq m c t) (fun i => by
    have hN : cfg0.N = 64 := N_0
    have hi0 : (i 0).val < 64 := (i 0).isLt
    have hi1 : (i 1).val < 16 := (i 1).isLt
    have hi2 : (i 2).val < 128 := (i 2).isLt
    refine ⟨⟨(i 0).val, by omega⟩, flush0_1 _, ?_⟩
    rw [mem_blk]
    obtain ⟨-, -, -, e0, e1, e2⟩ := idx_facts ⟨(i 0).val, by omega⟩
    intro a
    match a with
    | ⟨0, _⟩ =>
      show win0_1.index _ (0 : Fin 3) * 1 ≤ (i 0).val ∧ (i 0).val < win0_1.index _ (0 : Fin 3) * 1 + 1
      rw [e0]; dsimp only; omega
    | ⟨1, _⟩ =>
      show win0_1.index _ (1 : Fin 3) * 16 ≤ (i 1).val ∧ (i 1).val < win0_1.index _ (1 : Fin 3) * 16 + 16
      rw [e1]; omega
    | ⟨2, _⟩ =>
      show win0_1.index _ (2 : Fin 3) * 128 ≤ (i 2).val ∧ (i 2).val < win0_1.index _ (2 : Fin 3) * 128 + 128
      rw [e2]; omega)

/-! ## The program's last line, and the run -/

/-- The tiled specification reshaped to 64 × 2048 is the specification: entry `(b, s)` of the reshaped array is entry
    `(b, s / 128, s % 128)` of the tiled one, which is the specification at row `128 (s / 128) + s % 128 = s`. -/
theorem result_eq (X : SX.Idx → EReal) :
    shapeCast S64x2048 (tiled X) shapeCasts_S64x16x128_S64x2048 = G X := by
  funext i
  obtain ⟨b, s, rfl⟩ : ∃ (b : Fin 64) (s : Fin 2048), i = ix2 b s := ⟨i 0, i 1, eq_ix2 i⟩
  have hs : s.val < 2048 := s.isLt
  have hp : s.val / 128 < 16 := by omega
  have hq : s.val % 128 < 128 := by omega
  refine (shapeCast_apply (tiled X) shapeCasts_S64x16x128_S64x2048 (ix2 b s)
    (ix3 b (⟨s.val / 128, hp⟩ : Fin 16) (⟨s.val % 128, hq⟩ : Fin 128)) ?_).trans ?_
  · rw [Shape.rowMajor_val_three, Shape.rowMajor_val_two]
    show (b.val * 16 + s.val / 128) * 128 + s.val % 128 = b.val * 2048 + s.val
    omega
  · show G X (ix2 b (flat ⟨s.val / 128, hp⟩ ⟨s.val % 128, hq⟩)) = G X (ix2 b s)
    exact congrArg (fun s' => G X (ix2 b s')) (Fin.ext (by show s.val / 128 * 128 + s.val % 128 = s.val; omega))

/-- What the program's result holds after the run: the reshape of the array the region left. -/
theorem tail_eq (c : Dev nD) :
    Pipeline.afterTail₀ cfgs (dats m) 0 (V0 m) [hostOps1] c main_v1
      = shapeCast S64x2048 (tiled (V m c main_arg0)) shapeCasts_S64x16x128_S64x2048 := by
  have hA : Pipeline.withArrays (cfgs 0).spec c (V0 m c) (fun w => (dats m 0 c).arrAt w (cfgs 0).N)
      (Proc.devRef .tc main_v0) = tiled (V m c main_arg0) :=
    (Pipeline.withArrays_arr spec0 launch0.win.arr_inj c _ _ 1).trans (final m c)
  unfold Pipeline.afterTail₀
  show StableHlo.after hostOps1 _ (Proc.devRef .tc main_v1) = _
  after_results
  exact congrArg (fun A => shapeCast S64x2048 A shapeCasts_S64x16x128_S64x2048) hA

/-- The kernel's run at the ideal instance: every weakly fair execution ends with the result at the specification of the
    argument, and the argument unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0))
      ∧ r.2.mem ((c : Thread nD τ).loc main_arg0) = m ((c : Thread nD τ).loc main_arg0) :=
  (θ_run defs _ _).mono (fun r h c =>
      ⟨((h c).2 main_v1 (by decide)).trans ((tail_eq m c).trans (result_eq _)),
        ((h c).1 0).trans (((dats m 0 c).arrAt_in 0 rfl _).trans ((A_eq m c 0).trans (V_main_arg0 m c)))⟩)
    (run_main m ρ)

end Cert.KernelArray

end
-- ==== Proof.RefIsSpec.lean ====
/-
  The reference program, read index by index, is the specification function.

  The reference takes the rows from the second on and the rows up to the last but one, subtracts them, squares the
  difference, sums each row's 512 squares, puts one zero in front of each sequence's 2047 sums, takes each sequence's
  maximum from `-∞`, and divides every entry by its sequence's maximum. Read at an index `(b, s)` that is the distance
  at row `s` of sequence `b` over the sequence's largest distance: the function `Cert.Spec.G`.
-/
import proofs.«101810_j44693429682542_2_alg».proof.Proof.Gen.ReferenceIdeal.Read
import proofs.«101810_j44693429682542_2_alg».proof.Proof.Spec
import Idealize.ShloMosaic.Lib.Pipeline.Value
import Idealize.ShloMosaic.Lib.ValueIdx
import Idealize.ShloMosaic.PureOps.Ideal.Laws

noncomputable section

namespace Cert.RefIsSpec

open Cert.ReferenceIdeal Cert.ReferenceIdeal.Gen Cert.ReferenceIdeal.Read Cert.Spec
open Idealize.ShloMosaic Idealize.ShloMosaic.ValueIdx

/-- Row `r + 1` of the argument, read through the slice that drops the first row and the sum's column index. -/
theorem idx_up (b : Fin 64) (r : Fin 2047) (k : Fin 512) :
    idx_main_v0 (idx_main_v4 (ix2 b r) k) = ix3 b (up r) k := by
  funext a
  apply Fin.ext
  match a with
  | ⟨0, _⟩ => rfl
  | ⟨1, _⟩ => show 1 + r.val = r.val + 1; omega
  | ⟨2, _⟩ => rfl

/-- Row `r` of the argument, read through the slice that drops the last row and the sum's column index. -/
theorem idx_lo (b : Fin 64) (r : Fin 2047) (k : Fin 512) :
    idx_main_v1 (idx_main_v4 (ix2 b r) k) = ix3 b (lo r) k := by
  funext a
  apply Fin.ext
  match a with
  | ⟨0, _⟩ => rfl
  | ⟨1, _⟩ => rfl
  | ⟨2, _⟩ => rfl

/-- The reference's row sum at `(b, r)` is the squared distance between rows `r + 1` and `r` of sequence `b`. -/
theorem v4_apply (x0 : (⟨S64x2048x512, .f32⟩ : BufTy).Contents (Elt Ideal)) (b : Fin 64) (r : Fin 2047) :
    val_main_v4 (F := Ideal) x0 (ix2 b r) = step x0 b r := by
  rw [val_main_v4_apply, val_main_cst_apply, Ideal.ofBits_def, Ideal.ofBits_zero_f32, zero_add]
  unfold step
  refine Finset.sum_congr rfl fun k _ => ?_
  rw [val_main_v3_apply, val_main_v2_apply, val_main_v0_apply, val_main_v1_apply, idx_up, idx_lo,
    Ideal.mulf_def, Ideal.subf_def]

/-- The reference's padded distance row at `(b, s)` is the distance at row `s`: the zero in front at the first row,
    the row sum one place back from the second row on. -/
theorem v6_apply (x0 : (⟨S64x2048x512, .f32⟩ : BufTy).Contents (Elt Ideal)) (b : Fin 64) (s : Fin 2048) :
    val_main_v6 (F := Ideal) x0 (ix2 b s) = dist x0 b s := by
  unfold val_main_v6
  by_cases h : s.val = 0
  · rw [dist_zero x0 b s h]
    refine (concatenate_pair_apply_left 1 (val_main_v5 (F := Ideal)) (val_main_v4 (F := Ideal) x0)
      concatenates_S64x1_S64x2047_S64x2048_d1 (ix2 b s) rfl (ix2 b ⟨0, Nat.one_pos⟩) ?_).trans ?_
    · intro a
      match a with
      | ⟨0, _⟩ => rfl
      | ⟨1, _⟩ => exact h.symm
    · rw [val_main_v5_apply, val_main_cst_0_apply, Ideal.ofBits_def, Ideal.ofBits_zero_f32]
  · have hs := s.isLt
    have hr : s.val - 1 < 2047 := by omega
    rw [dist_succ x0 b s ⟨s.val - 1, hr⟩ (by show s.val = s.val - 1 + 1; omega)]
    refine (concatenate_pair_apply_right 1 (val_main_v5 (F := Ideal)) (val_main_v4 (F := Ideal) x0)
      concatenates_S64x1_S64x2047_S64x2048_d1 (ix2 b s) rfl rfl (ix2 b ⟨s.val - 1, hr⟩) ?_ ?_).trans
      (v4_apply x0 b ⟨s.val - 1, hr⟩)
    · intro a ha
      match a with
      | ⟨0, _⟩ => rfl
      | ⟨1, _⟩ => exact absurd rfl ha
    · show s.val - 1 + 1 = s.val
      omega

/-- Result index `b` with row `s` put back on the reduced axis is the index `(b, s)`. -/
theorem lift_row (h : S64x2048.Reduces [1] S64) (b : Fin 64) (s : Fin 2048) :
    h.lift (ix1 b) s = ix2 b s := by
  funext a
  apply Fin.ext
  match a with
  | ⟨0, _⟩ => rfl
  | ⟨1, _⟩ => rfl

/-- The reference's row maximum at `b` is the largest distance of sequence `b`, taken from `-∞`. -/
theorem v7_apply (x0 : (⟨S64x2048x512, .f32⟩ : BufTy).Contents (Elt Ideal)) (b : Fin 64) :
    val_main_v7 (F := Ideal) x0 (ix1 b) = top x0 b := by
  unfold val_main_v7
  have hR : S64x2048.Reduces [1] S64 := by decide
  refine (Host.reduce_eq_fold_single (s := S64x2048) (t := S64) (a := 1) (FloatOps.maximumf (F := Ideal) (φ := .f32))
    (val_main_v6 (F := Ideal) x0) (val_main_cst_1 (F := Ideal)) reducesTo_S64x2048_S64_d1 hR h_S_ (ix1 b)).trans ?_
  unfold top
  refine congrArg (fun f => (Finset.univ : Finset (Fin 2048)).fold max (Ideal.ofBits .f32 0xFF800000#32) f)
    (funext fun s => ?_)
  exact (congrArg (val_main_v6 (F := Ideal) x0) (lift_row hR b s)).trans (v6_apply x0 b s)

/-- The two broadcasts of the row maximum read it, at `(b, s)`, at `b`. -/
theorem idx_row (b : Fin 64) (s : Fin 2048) : idx_main_v8 (idx_main_v9 (ix2 b s)) = ix1 b := by
  funext a
  apply Fin.ext
  match a with
  | ⟨0, _⟩ => rfl

/-- The reference's result is the specification function: each distance over its sequence's largest. -/
theorem ref_eq (x0 : (⟨Cert.ReferenceIdeal.S64x2048x512, .f32⟩ : BufTy).Contents (Elt Ideal)) :
    Cert.ReferenceIdeal.Read.val_main_v10 (F := Ideal) x0 = Cert.Spec.G x0 := by
  funext i
  obtain ⟨b, s, rfl⟩ : ∃ b s, i = ix2 b s := ⟨i 0, i 1, eq_ix2 i⟩
  rw [val_main_v10_apply, v6_apply, val_main_v9_apply, val_main_v8_apply, idx_row, v7_apply, Ideal.hostDivf_def,
    G_apply]

end Cert.RefIsSpec

end
-- ==== Proof.lean ====
/-
  The kernel and its reference compute one function.

  For 64 sequences of 2048 rows of 512 numbers, both programs return, at sequence `b` and row `s`, the squared
  Euclidean distance between row `s` and the row before it (zero at the first row) divided by the largest such
  distance of the sequence, the maximum taken from `-∞`: `Cert.Spec.G`.

  The kernel handles one sequence per grid point: it writes the 2048 distances into a scratch column (a zero, then the
  2047 row sums), reads the column back, divides by its maximum and stores the quotients as 16 rows of 128; the 64
  blocks tile a 64 × 16 × 128 array which the program's last line reshapes to 64 × 2048 (`Cert.KernelArray.run`). The
  reference slices, subtracts, squares, sums, puts a zero column in front, takes the row maxima and divides
  (`Cert.RefIsSpec.ref_eq`). Over the extended reals the two are the same function of the argument entry by entry; no
  law of arithmetic and no finiteness is needed, only where each entry is read from.

  The kernel's idealization is its own text read at the ideal instance, so the preservation claim is trivial. The
  three frames are the generated ones: the kernel's at the word level and at the ideal instance, and the reference's run
  with its result dropped.
-/
import proofs.«101810_j44693429682542_2_alg».proof.Defs
import proofs.«101810_j44693429682542_2_alg».proof.Proof.Gen.Kernel
import proofs.«101810_j44693429682542_2_alg».proof.Proof.Gen.Kernel.Skeleton
import proofs.«101810_j44693429682542_2_alg».proof.Proof.Gen.Kernel.Launch
import proofs.«101810_j44693429682542_2_alg».proof.Proof.Gen.Kernel.Points
import proofs.«101810_j44693429682542_2_alg».proof.Proof.Gen.Kernel.Frame
import proofs.«101810_j44693429682542_2_alg».proof.Proof.Gen.KernelIdeal
import proofs.«101810_j44693429682542_2_alg».proof.Proof.Gen.KernelIdeal.Skeleton
import proofs.«101810_j44693429682542_2_alg».proof.Proof.Gen.KernelIdeal.Launch
import proofs.«101810_j44693429682542_2_alg».proof.Proof.Gen.KernelIdeal.Points
import proofs.«101810_j44693429682542_2_alg».proof.Proof.Gen.KernelIdeal.Frame
import proofs.«101810_j44693429682542_2_alg».proof.Proof.Gen.ReferenceIdeal
import proofs.«101810_j44693429682542_2_alg».proof.Proof.Gen.ReferenceIdeal.Run
import proofs.«101810_j44693429682542_2_alg».proof.Proof.Gen.ReferenceIdeal.Read
import proofs.«101810_j44693429682542_2_alg».proof.Proof.Gen.Pre_finite_inputs
import proofs.«101810_j44693429682542_2_alg».proof.Proof.KernelArray
import proofs.«101810_j44693429682542_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs, and leaves its argument as it was. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference runs and leaves its argument as it was: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the argument, the kernel's result and the reference's are both the specification
    function of that argument. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)),
    Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.RefIsSpec.ref_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
